-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S32x3x256x2x256x2 : Shape := ⟨6, ![32, 3, 256, 2, 256, 2]⟩
abbrev S32x3x256x1x256x1 : Shape := ⟨6, ![32, 3, 256, 1, 256, 1]⟩
abbrev S32x3x256x256 : Shape := ⟨4, ![32, 3, 256, 256]⟩
abbrev S96x256x256 : Shape := ⟨3, ![96, 256, 256]⟩
abbrev S96x4x256x256 : Shape := ⟨4, ![96, 4, 256, 256]⟩
abbrev S8x256x256 : Shape := ⟨3, ![8, 256, 256]⟩
abbrev S8x4x256x256 : Shape := ⟨4, ![8, 4, 256, 256]⟩
abbrev S8x1x256x256 : Shape := ⟨4, ![8, 1, 256, 256]⟩
abbrev S32x3x4x256x256 : Shape := ⟨5, ![32, 3, 4, 256, 256]⟩

abbrev nBuf : Space → Nat
  | .hbm => 16
  | .vmem => 10
  | .smem => 0
  | _ => 0

abbrev bufTy : (tb : Table) → Fin (tcTables nBuf tb) → BufTy
  | .hbm, ⟨0, _⟩ => ⟨S32x3x512x512, .f32⟩
  | .hbm, ⟨1, _⟩ => ⟨S32x3x256x2x256x2, .f32⟩
  | .hbm, ⟨2, _⟩ => ⟨S32x3x256x1x256x1, .f32⟩
  | .hbm, ⟨3, _⟩ => ⟨S32x3x256x256, .f32⟩
  | .hbm, ⟨4, _⟩ => ⟨S32x3x256x1x256x1, .f32⟩
  | .hbm, ⟨5, _⟩ => ⟨S32x3x256x256, .f32⟩
  | .hbm, ⟨6, _⟩ => ⟨S32x3x256x1x256x1, .f32⟩
  | .hbm, ⟨7, _⟩ => ⟨S32x3x256x256, .f32⟩
  | .hbm, ⟨8, _⟩ => ⟨S32x3x256x1x256x1, .f32⟩
  | .hbm, ⟨9, _⟩ => ⟨S32x3x256x256, .f32⟩
  | .hbm, ⟨10, _⟩ => ⟨S96x256x256, .f32⟩
  | .hbm, ⟨11, _⟩ => ⟨S96x256x256, .f32⟩
  | .hbm, ⟨12, _⟩ => ⟨S96x256x256, .f32⟩
  | .hbm, ⟨13, _⟩ => ⟨S96x256x256, .f32⟩
  | .hbm, ⟨14, _⟩ => ⟨S96x4x256x256, .f32⟩
  | .hbm, ⟨15, _⟩ => ⟨S32x3x4x256x256, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S8x256x256, .f32⟩
  | .local _ .vmem, ⟨7, _⟩ => ⟨S8x256x256, .f32⟩
  | .local _ .vmem, ⟨8, _⟩ => ⟨S8x4x256x256, .f32⟩
  | .local _ .vmem, ⟨9, _⟩ => ⟨S8x4x256x256, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x3x512x512_S32x3x256x2x256x2 : S32x3x512x512.ShapeCasts S32x3x256x2x256x2
  slices_S32x3x256x2x256x2_S32x3x256x1x256x1_0_0_0_0_0_0 : S32x3x256x2x256x2.Slices ![0, 0, 0, 0, 0, 0] S32x3x256x1x256x1
  shapeCasts_S32x3x256x1x256x1_S32x3x256x256 : S32x3x256x1x256x1.ShapeCasts S32x3x256x256
  slices_S32x3x256x2x256x2_S32x3x256x1x256x1_0_0_0_0_0_1 : S32x3x256x2x256x2.Slices ![0, 0, 0, 0, 0, 1] S32x3x256x1x256x1
  slices_S32x3x256x2x256x2_S32x3x256x1x256x1_0_0_0_1_0_0 : S32x3x256x2x256x2.Slices ![0, 0, 0, 1, 0, 0] S32x3x256x1x256x1
  slices_S32x3x256x2x256x2_S32x3x256x1x256x1_0_0_0_1_0_1 : S32x3x256x2x256x2.Slices ![0, 0, 0, 1, 0, 1] S32x3x256x1x256x1
  shapeCasts_S32x3x256x256_S96x256x256 : S32x3x256x256.ShapeCasts S96x256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  shapeCasts_S8x256x256_S8x1x256x256 : S8x256x256.ShapeCasts S8x1x256x256
  concatenates_S8x1x256x256_S8x1x256x256_S8x1x256x256_S8x1x256x256_S8x4x256x256_d1 : Shape.Concatenates [S8x1x256x256, S8x1x256x256, S8x1x256x256, S8x1x256x256] S8x4x256x256 1
  inb_S8x4x256x256_S8x4x256x256_0_0_0_0 : ∀ a, (![0, 0, 0, 0] : Fin 4 → Nat) a + S8x4x256x256.size a ≤ S8x4x256x256.size a
  h_S8x4x256x256 : 0 < S8x4x256x256.numel
  shapeCasts_S96x4x256x256_S32x3x4x256x256 : S96x4x256x256.ShapeCasts S32x3x4x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S96x256x256.size a
  hwx0_0 : ∀ i : grid0.Coords, EltTy.bits .f32 = 32 ∨ (Rect.block (s := S96x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S96x256x256.size a
  hwx0_1 : ∀ i : grid0.Coords, EltTy.bits .f32 = 32 ∨ (Rect.block (s := S96x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S96x256x256.size a
  hwx0_2 : ∀ i : grid0.Coords, EltTy.bits .f32 = 32 ∨ (Rect.block (s := S96x256x256) S8x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S96x256x256.size a
  hwx0_3 : ∀ i : grid0.Coords, EltTy.bits .f32 = 32 ∨ (Rect.block (s := S96x256x256) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x4x256x256.size a ≤ S96x4x256x256.size a
  hwx0_4 : ∀ i : grid0.Coords, EltTy.bits .f32 = 32 ∨ (Rect.block (s := S96x4x256x256) S8x4x256x256.size (cc0_transform_4 i) (hinb0_4 i)).WholeWords (EltTy.packing .f32)

variable [Facts₀]

abbrev win0_0 : Pipeline.Window sig grid0 :=
  Pipeline.Window.ofSpec (Memref.whole main_v9) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8x4x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x3x256x2x256x2 : Shape := ⟨6, ![32, 3, 256, 2, 256, 2]⟩
abbrev S32x3x256x1x256x1 : Shape := ⟨6, ![32, 3, 256, 1, 256, 1]⟩
abbrev S32x3x256x256 : Shape := ⟨4, ![32, 3, 256, 256]⟩
abbrev S_ : Shape := ⟨0, ![]⟩
abbrev S32x3x1x256x256 : Shape := ⟨5, ![32, 3, 1, 256, 256]⟩
abbrev S32x3x4x256x256 : Shape := ⟨5, ![32, 3, 4, 256, 256]⟩

abbrev nBuf : Space → Nat
  | .hbm => 39
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x256x2x256x2, .f32⟩
  | .hbm, ⟨2, _⟩ => ⟨S32x3x256x1x256x1, .f32⟩
  | .hbm, ⟨3, _⟩ => ⟨S32x3x256x256, .f32⟩
  | .hbm, ⟨4, _⟩ => ⟨S32x3x256x1x256x1, .f32⟩
  | .hbm, ⟨5, _⟩ => ⟨S32x3x256x256, .f32⟩
  | .hbm, ⟨6, _⟩ => ⟨S32x3x256x1x256x1, .f32⟩
  | .hbm, ⟨7, _⟩ => ⟨S32x3x256x256, .f32⟩
  | .hbm, ⟨8, _⟩ => ⟨S32x3x256x1x256x1, .f32⟩
  | .hbm, ⟨9, _⟩ => ⟨S32x3x256x256, .f32⟩
  | .hbm, ⟨10, _⟩ => ⟨S32x3x256x256, .f32⟩
  | .hbm, ⟨11, _⟩ => ⟨S32x3x256x256, .f32⟩
  | .hbm, ⟨12, _⟩ => ⟨S32x3x256x256, .f32⟩
  | .hbm, ⟨13, _⟩ => ⟨S_, .f32⟩
  | .hbm, ⟨14, _⟩ => ⟨S32x3x256x256, .f32⟩
  | .hbm, ⟨15, _⟩ => ⟨S32x3x256x256, .f32⟩
  | .hbm, ⟨16, _⟩ => ⟨S32x3x256x256, .f32⟩
  | .hbm, ⟨17, _⟩ => ⟨S32x3x256x256, .f32⟩
  | .hbm, ⟨18, _⟩ => ⟨S32x3x256x256, .f32⟩
  | .hbm, ⟨19, _⟩ => ⟨S_, .f32⟩
  | .hbm, ⟨20, _⟩ => ⟨S32x3x256x256, .f32⟩
  | .hbm, ⟨21, _⟩ => ⟨S32x3x256x256, .f32⟩
  | .hbm, ⟨22, _⟩ => ⟨S32x3x256x256, .f32⟩
  | .hbm, ⟨23, _⟩ => ⟨S32x3x256x256, .f32⟩
  | .hbm, ⟨24, _⟩ => ⟨S32x3x256x256, .f32⟩
  | .hbm, ⟨25, _⟩ => ⟨S_, .f32⟩
  | .hbm, ⟨26, _⟩ => ⟨S32x3x256x256, .f32⟩
  | .hbm, ⟨27, _⟩ => ⟨S32x3x256x256, .f32⟩
  | .hbm, ⟨28, _⟩ => ⟨S32x3x256x256, .f32⟩
  | .hbm, ⟨29, _⟩ => ⟨S32x3x256x256, .f32⟩
  | .hbm, ⟨30, _⟩ => ⟨S32x3x256x256, .f32⟩
  | .hbm, ⟨31, _⟩ => ⟨S_, .f32⟩
  | .hbm, ⟨32, _⟩ => ⟨S32x3x256x256, .f32⟩
  | .hbm, ⟨33, _⟩ => ⟨S32x3x256x256, .f32⟩
  | .hbm, ⟨34, _⟩ => ⟨S32x3x1x256x256, .f32⟩
  | .hbm, ⟨35, _⟩ => ⟨S32x3x1x256x256, .f32⟩
  | .hbm, ⟨36, _⟩ => ⟨S32x3x1x256x256, .f32⟩
  | .hbm, ⟨37, _⟩ => ⟨S32x3x1x256x256, .f32⟩
  | .hbm, ⟨38, _⟩ => ⟨S32x3x4x256x256, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]

class Facts₀ : Prop where
  shapeCasts_S32x3x512x512_S32x3x256x2x256x2 : S32x3x512x512.ShapeCasts S32x3x256x2x256x2
  slices_S32x3x256x2x256x2_S32x3x256x1x256x1_0_0_0_0_0_0 : S32x3x256x2x256x2.Slices ![0, 0, 0, 0, 0, 0] S32x3x256x1x256x1
  shapeCasts_S32x3x256x1x256x1_S32x3x256x256 : S32x3x256x1x256x1.ShapeCasts S32x3x256x256
  slices_S32x3x256x2x256x2_S32x3x256x1x256x1_0_0_0_0_0_1 : S32x3x256x2x256x2.Slices ![0, 0, 0, 0, 0, 1] S32x3x256x1x256x1
  slices_S32x3x256x2x256x2_S32x3x256x1x256x1_0_0_0_1_0_0 : S32x3x256x2x256x2.Slices ![0, 0, 0, 1, 0, 0] S32x3x256x1x256x1
  slices_S32x3x256x2x256x2_S32x3x256x1x256x1_0_0_0_1_0_1 : S32x3x256x2x256x2.Slices ![0, 0, 0, 1, 0, 1] S32x3x256x1x256x1
  bcast_S_S32x3x256x256 : S_.BroadcastsInDim S32x3x256x256 (![] : Fin 0 → Fin S32x3x256x256.rank)
  bcast_S32x3x256x256_S32x3x1x256x256_0_1_3_4 : S32x3x256x256.BroadcastsInDim S32x3x1x256x256 (![0, 1, 3, 4] : Fin 4 → Fin S32x3x1x256x256.rank)
  concatenates_S32x3x1x256x256_S32x3x1x256x256_S32x3x1x256x256_S32x3x1x256x256_S32x3x4x256x256_d2 : Shape.Concatenates [S32x3x1x256x256, S32x3x1x256x256, S32x3x1x256x256, S32x3x1x256x256] S32x3x4x256x256 2

variable [Facts₀]

class Facts : Prop extends Facts₀ where

variable [Facts]
-- ==== Proof.HaarBands.lean ====
/-
  The mathematics shared by both programs: one level of the two-dimensional Haar transform.

  Each 2×2 cell of the image holds four samples, named by their place in the cell: `a` (top left), `b` (top right),
  `c` (bottom left), `d` (bottom right). The transform sends a cell to four coefficients, each half of a signed sum,

      band 0 = ((a + b) + c + d) · ½        band 1 = ((a + b) − c − d) · ½
      band 2 = ((a − b) + c − d) · ½        band 3 = ((a − b) − c + d) · ½

  and stacks the four coefficient images along a new axis. Both programs spell every coefficient with this very
  grouping of the additions and subtractions and with the same word for ½, so no law of arithmetic is needed to
  compare them: the comparison is only about WHERE each coefficient is stored. This file states the coefficient
  (`band`), reads a stack of four images at an index (`concatenate_four_unit_apply`: the coordinate on the stacking axis
  names the image), and states the result as one function `stacked` of the four sample images, index by index.
-/
import Idealize.ShloMosaic.PureOps
import Idealize.ShloMosaic.Lib.ValueIdx
import Idealize.ShloMosaic.Lib.Pipeline.Value

noncomputable section

namespace Cert.Haar

open Idealize.ShloMosaic Idealize.ShloMosaic.ValueIdx

/-! ## A stack of four images read at an index -/

section Stack
variable {α : Type}

/-- The image of a stack of four that position `n` names. -/
def pick4 (n : Nat) (f0 f1 f2 f3 : α) : α :=
  match n with
  | 0 => f0
  | 1 => f1
  | 2 => f2
  | _ => f3

/-- Four images of one shape, each of extent one along the axis `a`, joined along `a`: the result at an index is the
    image its coordinate on `a` names, read at the index with the same coordinates off the axis. -/
theorem concatenate_four_unit_apply {t s₁ : Shape} (a : Fin t.rank) (f0 f1 f2 f3 : s₁.Idx → α)
    (h : Shape.Concatenates ([(⟨s₁, f0⟩ : (s : Shape) × (s.Idx → α)), ⟨s₁, f1⟩, ⟨s₁, f2⟩, ⟨s₁, f3⟩].map (·.1)) t a)
    (hr : s₁.rank = t.rank) (h1 : s₁.size (a.cast hr.symm) = 1) (j : t.Idx)
    (i : s₁.Idx) (hi : ∀ b : Fin s₁.rank, b.cast hr ≠ a → (i b).val = (j (b.cast hr)).val) :
    concatenate t a [⟨s₁, f0⟩, ⟨s₁, f1⟩, ⟨s₁, f2⟩, ⟨s₁, f3⟩] h j = pick4 (j a).val f0 f1 f2 f3 i := by
  have hia : (i (a.cast hr.symm)).val = 0 := by
    have hlt : (i (a.cast hr.symm)).val < s₁.size (a.cast hr.symm) := (i (a.cast hr.symm)).isLt
    omega
  have hlt4 : (j a).val < 4 := by
    have hj := (j a).isLt
    have e := h.2.2
    simp only [List.map_cons, List.map_nil, dif_pos hr, h1, List.sum_cons, List.sum_nil] at e
    omega
  have hcases : (j a).val = 0 ∨ (j a).val = 1 ∨ (j a).val = 2 ∨ (j a).val = 3 := by omega
  rcases hcases with e | e | e | e
  · rw [e]
    exact concatenate_apply_piece a _ h j 0 (by simp) s₁ f0 rfl hr 0 (by simp) i hi (by omega)
  · rw [e]
    exact concatenate_apply_piece a _ h j 1 (by simp) s₁ f1 rfl hr 1 (by simp [dif_pos hr, h1]) i hi (by omega)
  · rw [e]
    exact concatenate_apply_piece a _ h j 2 (by simp) s₁ f2 rfl hr 2 (by simp [dif_pos hr, h1]) i hi (by omega)
  · rw [e]
    exact concatenate_apply_piece a _ h j 3 (by simp) s₁ f3 rfl hr 3 (by simp [dif_pos hr, h1]) i hi (by omega)

/-- Reading the named image at an index is naming among the four readings. -/
theorem pick4_apply {ι : Type} (n : Nat) (f0 f1 f2 f3 : ι → α) (i : ι) :
    pick4 n f0 f1 f2 f3 i = pick4 n (f0 i) (f1 i) (f2 i) (f3 i) := by
  unfold pick4
  split <;> rfl

end Stack

/-! ## One coefficient -/

section Band
variable {F : FTy → Type} [FloatOps F]

/-- Coefficient `s` of the cell with samples `a b c d`: half of the signed sum the band's number names, the sum grouped
    from the left. -/
def band (s : Nat) (a b c d : F .f32) : F .f32 :=
  pick4 s
    (FloatOps.mulf (FloatOps.addf (FloatOps.addf (FloatOps.addf a b) c) d) (FloatOps.ofBits .f32 0x3F000000#32))
    (FloatOps.mulf (FloatOps.subf (FloatOps.subf (FloatOps.addf a b) c) d) (FloatOps.ofBits .f32 0x3F000000#32))
    (FloatOps.mulf (FloatOps.subf (FloatOps.addf (FloatOps.subf a b) c) d) (FloatOps.ofBits .f32 0x3F000000#32))
    (FloatOps.mulf (FloatOps.addf (FloatOps.subf (FloatOps.subf a b) c) d) (FloatOps.ofBits .f32 0x3F000000#32))

/-- A coefficient depends only on its band and its four samples. -/
theorem band_congr {s s' : Nat} {a a' b b' c c' d d' : F .f32} (hs : s = s') (ha : a = a') (hb : b = b')
    (hc : c = c') (hd : d = d') : band s a b c d = band s' a' b' c' d' := by
  subst hs ha hb hc hd
  rfl

end Band

end Cert.Haar

end
-- ==== Proof.Payload.lean ====
/-
  What one grid point computes: the body's single store holds, for the eight planes of its block, the four
  coefficient images stacked on the axis after the plane. The body adds a unit band axis to each coefficient image and
  joins the four along it, so entry (plane, band `s`, row, column) of the stored block is coefficient `s` of the four
  loaded blocks at (plane, row, column) (`pay_apply`).
-/
import proofs.«159560_j53309134078401_1_alg».proof.Proof.Gen.KernelIdeal.Skeleton
import proofs.«159560_j53309134078401_1_alg».proof.Proof.HaarBands

noncomputable section

namespace Cert.KernelIdeal.Payload

open Cert.KernelIdeal Cert.KernelIdeal.Gen Idealize.ShloMosaic Idealize.ShloMosaic.ValueIdx Cert.Haar

variable {F : FTy → Type} [FloatOps F]

/-- The entry of a loaded block that a stored entry is computed from: its index without the band. -/
abbrev blkCell (y : S8x4x256x256.Idx) : S8x256x256.Idx := fun a => match a with
  | ⟨0, _⟩ => ⟨(y 0).val, (y 0).isLt⟩
  | ⟨1, _⟩ => ⟨(y 2).val, (y 2).isLt⟩
  | ⟨2, _⟩ => ⟨(y 3).val, (y 3).isLt⟩

/-- The entry of a coefficient image with its unit band axis that a stored entry is taken from. -/
abbrev pieceIdx (y : S8x4x256x256.Idx) : S8x1x256x256.Idx := fun a => match a with
  | ⟨0, _⟩ => ⟨(y 0).val, (y 0).isLt⟩
  | ⟨1, _⟩ => ⟨0, Nat.one_pos⟩
  | ⟨2, _⟩ => ⟨(y 2).val, (y 2).isLt⟩
  | ⟨3, _⟩ => ⟨(y 3).val, (y 3).isLt⟩

/-- Adding the unit band axis moves no entry. -/
theorem addBand_apply {α : Type} (v : S8x256x256.Idx → α) (h : S8x256x256.ShapeCasts S8x1x256x256) (y : S8x4x256x256.Idx) :
    shapeCast S8x1x256x256 v h (pieceIdx y) = v (blkCell y) := by
  refine shapeCast_apply v h (pieceIdx y) (blkCell y) ?_
  rw [Shape.rowMajor_val_three, Shape.rowMajor_val_four]
  show ((y 0).val * 256 + (y 2).val) * 256 + (y 3).val = (((y 0).val * 1 + 0) * 256 + (y 2).val) * 256 + (y 3).val
  omega

/-- THE STORED BLOCK, entry by entry: coefficient `s` of the four loaded blocks at the entry's plane, row and column. -/
theorem pay_apply (x0 x1 x2 x3 : Vec F S8x256x256 .f32) (y : S8x4x256x256.Idx) :
    k0_pay1 x0 x1 x2 x3 y = band (y 1).val (x0 (blkCell y)) (x1 (blkCell y)) (x2 (blkCell y)) (x3 (blkCell y)) := by
  unfold k0_pay1
  dsimp only
  refine Eq.trans (concatenate_four_unit_apply (t := S8x4x256x256) (s₁ := S8x1x256x256) 1 _ _ _ _ _ rfl rfl y (pieceIdx y) ?_) ?_
  · intro b hb
    match b with
    | ⟨0, _⟩ => rfl
    | ⟨1, _⟩ => exact absurd rfl hb
    | ⟨2, _⟩ => rfl
    | ⟨3, _⟩ => rfl
  · rw [pick4_apply, addBand_apply, addBand_apply, addBand_apply, addBand_apply]
    simp only [shapeCast_self]
    rfl

end Cert.KernelIdeal.Payload

end
-- ==== Proof.HaarLayout.lean ====
/-
  Where each coefficient is stored, in the two layouts the programs use.

  The image is `[32, 3, 512, 512]` (batch, channel, row, column); a sample image or a coefficient image is
  `[32, 3, 256, 256]` (one entry per 2×2 cell). The result stacks the four coefficient images on a new axis after the
  channel: `[32, 3, 4, 256, 256]` (`stacked`). One program computes on images whose batch and channel axes are merged
  into one axis of 96 = 32 · 3 planes, `[96, 256, 256]`, stacks on the axis after the plane, `[96, 4, 256, 256]`
  (`stackedFlat`), and splits the planes again at the end. Plane `3·b + c` is (batch `b`, channel `c`): both merges keep
  the row-major order, so merging, stacking plane by plane and splitting again is stacking image by image
  (`split_stackedFlat_merge`). Nothing here depends on what a coefficient is.
-/
import proofs.«159560_j53309134078401_1_alg».proof.Proof.HaarBands

noncomputable section

namespace Cert.Haar

open Idealize.ShloMosaic Idealize.ShloMosaic.ValueIdx

/-! ## The shapes -/

/-- A sample image or a coefficient image: batch, channel, cell row, cell column. -/
abbrev Img : Shape := ⟨4, ![32, 3, 256, 256]⟩
/-- The result: batch, channel, band, cell row, cell column. -/
abbrev Out : Shape := ⟨5, ![32, 3, 4, 256, 256]⟩
/-- An image with batch and channel merged into 96 planes. -/
abbrev Flat : Shape := ⟨3, ![96, 256, 256]⟩
/-- The result over merged planes: plane, band, cell row, cell column. -/
abbrev FlatOut : Shape := ⟨4, ![96, 4, 256, 256]⟩

/-- The image: batch, channel, row, column. -/
abbrev Image : Shape := ⟨4, ![32, 3, 512, 512]⟩
/-- The image cut into 2×2 cells: batch, channel, cell row, row in the cell, cell column, column in the cell. -/
abbrev Cells : Shape := ⟨6, ![32, 3, 256, 2, 256, 2]⟩
/-- One place of every cell. -/
abbrev CellsAt : Shape := ⟨6, ![32, 3, 256, 1, 256, 1]⟩

/-! ## The four sample images -/

section Sample
variable {α : Type}

/-- The sample image at place (`p`, `q`) of the cells: the image cut into cells, that place of every cell taken, the
    two unit axes dropped. Both programs print exactly this chain, so it is never opened. -/
def sample (p q : Nat) (hsl : Cells.Slices ![0, 0, 0, p, 0, q] CellsAt) (x : Image.Idx → α) : Img.Idx → α :=
  shapeCast Img (extractStridedSlice CellsAt ![0, 0, 0, p, 0, q] (shapeCast Cells x (by decide)) hsl) (by decide)

theorem slices00 : Cells.Slices ![0, 0, 0, 0, 0, 0] CellsAt := by decide
theorem slices01 : Cells.Slices ![0, 0, 0, 0, 0, 1] CellsAt := by decide
theorem slices10 : Cells.Slices ![0, 0, 0, 1, 0, 0] CellsAt := by decide
theorem slices11 : Cells.Slices ![0, 0, 0, 1, 0, 1] CellsAt := by decide

/-- Top left, top right, bottom left, bottom right. -/
abbrev sampleA (x : Image.Idx → α) : Img.Idx → α := sample 0 0 slices00 x
abbrev sampleB (x : Image.Idx → α) : Img.Idx → α := sample 0 1 slices01 x
abbrev sampleC (x : Image.Idx → α) : Img.Idx → α := sample 1 0 slices10 x
abbrev sampleD (x : Image.Idx → α) : Img.Idx → α := sample 1 1 slices11 x

end Sample

/-! ## Indices -/

/-- The cell a result entry belongs to: its index without the band. -/
abbrev cell (i : Out.Idx) : Img.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩

/-- The same over merged planes. -/
abbrev planeCell (k : FlatOut.Idx) : Flat.Idx := fun a => match a with
  | ⟨0, _⟩ => ⟨(k 0).val, (k 0).isLt⟩
  | ⟨1, _⟩ => ⟨(k 2).val, (k 2).isLt⟩
  | ⟨2, _⟩ => ⟨(k 3).val, (k 3).isLt⟩

/-- A result index with batch `b` and channel `c` merged into plane `3·b + c`. -/
abbrev merged (i : Out.Idx) : FlatOut.Idx := fun a => match a with
  | ⟨0, _⟩ => ⟨3 * (i 0).val + (i 1).val, by
      have h0 : (i 0).val < 32 := (i 0).isLt
      have h1 : (i 1).val < 3 := (i 1).isLt
      show 3 * (i 0).val + (i 1).val < 96
      omega⟩
  | ⟨1, _⟩ => ⟨(i 2).val, (i 2).isLt⟩
  | ⟨2, _⟩ => ⟨(i 3).val, (i 3).isLt⟩
  | ⟨3, _⟩ => ⟨(i 4).val, (i 4).isLt⟩

/-! ## The result, in both layouts -/

section Stacked
variable {F : FTy → Type} [FloatOps F]

/-- THE RESULT: entry (batch, channel, band `s`, row, column) is coefficient `s` of that cell's four samples. -/
def stacked (A B C D : Img.Idx → F .f32) : Out.Idx → F .f32 := fun i =>
  band (i 2).val (A (cell i)) (B (cell i)) (C (cell i)) (D (cell i))

/-- The same over merged planes: entry (plane, band `s`, row, column). -/
def stackedFlat (A B C D : Flat.Idx → F .f32) : FlatOut.Idx → F .f32 := fun k =>
  band (k 1).val (A (planeCell k)) (B (planeCell k)) (C (planeCell k)) (D (planeCell k))

end Stacked

/-! ## Merging and splitting the plane axis -/

section Merge
variable {α : Type}

/-- An image with its planes merged, read at the merged cell of a result index, is the image at that index's cell:
    plane `3·b + c` is (batch `b`, channel `c`). -/
theorem merge_apply (X : Img.Idx → α) (h : Img.ShapeCasts Flat) (i : Out.Idx) :
    shapeCast Flat X h (planeCell (merged i)) = X (cell i) := by
  refine shapeCast_apply X h (planeCell (merged i)) (cell i) ?_
  rw [Shape.rowMajor_val_four, Shape.rowMajor_val_three]
  show (((i 0).val * 3 + (i 1).val) * 256 + (i 3).val) * 256 + (i 4).val
    = ((3 * (i 0).val + (i 1).val) * 256 + (i 3).val) * 256 + (i 4).val
  omega

/-- A result over merged planes with its planes split, read at a result index, is the merged result at the merged
    index. -/
theorem split_apply (Y : FlatOut.Idx → α) (h : FlatOut.ShapeCasts Out) (i : Out.Idx) :
    shapeCast Out Y h i = Y (merged i) := by
  refine shapeCast_apply Y h i (merged i) ?_
  rw [Shape.rowMajor_val_four, Shape.rowMajor_val_five]
  show (((3 * (i 0).val + (i 1).val) * 4 + (i 2).val) * 256 + (i 3).val) * 256 + (i 4).val
    = ((((i 0).val * 3 + (i 1).val) * 4 + (i 2).val) * 256 + (i 3).val) * 256 + (i 4).val
  omega

end Merge

section MergeStack
variable {F : FTy → Type} [FloatOps F]

/-- MERGE, STACK PLANE BY PLANE, SPLIT is stack image by image. -/
theorem split_stackedFlat_merge (A B C D : Img.Idx → F .f32) (hm : Img.ShapeCasts Flat) (hs : FlatOut.ShapeCasts Out) :
    shapeCast Out (stackedFlat (shapeCast Flat A hm) (shapeCast Flat B hm) (shapeCast Flat C hm) (shapeCast Flat D hm)) hs
      = stacked A B C D := by
  funext i
  rw [split_apply]
  unfold stackedFlat stacked
  exact band_congr rfl (merge_apply A hm i) (merge_apply B hm i) (merge_apply C hm i) (merge_apply D hm i)

end MergeStack

end Cert.Haar

end
-- ==== Proof.Blocks.lean ====
/-
  From what each grid point writes to the whole array after the region.

  The grid has twelve points; point `t` loads planes `8t … 8t+7` of each of the four merged sample images and writes
  the same eight planes of the merged result, all four bands and every row and column. So what point `t` writes back
  is block `t` of ONE whole-array function, `stackedFlat` of the four arrays the region finds (`block_eq` for any four
  arrays, `flushed_eq` at those the region finds), the
  twelve blocks cover the result array (plane `r` lies in block `r / 8`: `covered`), and the array after the region
  is that function (`final`).
-/
import proofs.«159560_j53309134078401_1_alg».proof.Proof.Gen.KernelIdeal.Frame
import proofs.«159560_j53309134078401_1_alg».proof.Proof.Payload
import proofs.«159560_j53309134078401_1_alg».proof.Proof.HaarLayout
import Idealize.ShloMosaic.Lib.Pipeline.Value

set_option maxRecDepth 16384

noncomputable section

namespace Cert.KernelIdeal.Blocks

open Cert.KernelIdeal Cert.KernelIdeal.Gen Cert.KernelIdeal.Payload Cert.Haar
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The printed index maps, decided over the twelve points: every input window is on the output's block of planes, and
    no window moves along the band, the rows or the columns. -/
theorem idx_facts : ∀ t : Fin cfg0.N,
    win0_0.index t (0 : Fin 3) = win0_4.index t (0 : Fin 4) ∧ win0_0.index t (1 : Fin 3) = 0 ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 3) = win0_4.index t (0 : Fin 4) ∧ win0_2.index t (1 : Fin 3) = 0 ∧ win0_2.index t (2 : Fin 3) = 0
    ∧ win0_3.index t (0 : Fin 3) = win0_4.index t (0 : Fin 4) ∧ win0_3.index t (1 : Fin 3) = 0 ∧ win0_3.index t (2 : Fin 3) = 0
    ∧ win0_4.index t (1 : Fin 4) = 0 ∧ win0_4.index t (2 : Fin 4) = 0 ∧ win0_4.index t (3 : Fin 4) = 0 :=
  (by decide +kernel : ∀ t : Fin grid0.N, _)

/-- Every block of eight planes is some point's. -/
theorem idx_onto : ∀ q : Fin 12, ∃ t : Fin cfg0.N, win0_4.index t = ![q.val, 0, 0, 0] :=
  (by decide +kernel : ∀ q : Fin 12, ∃ t : Fin grid0.N, win0_4.index t = ![q.val, 0, 0, 0])

/-- ONE POINT'S WORK, for any four arrays of merged planes: the body's store computed from block `t` of each array is
    block `t` of their merged stacked result. The arrays are variables here: nothing is known of them but their shape,
    so each block is read where the output's rectangle says and the rest is the arithmetic of the index maps. -/
theorem block_eq (t : Fin cfg0.N) (A' B' C' D' : S96x256x256.Idx → Elt F .f32) :
    (cfg0.win 4).cut (grid0.coords t)
        (k0_pay1 (((cfg0.win 0).blk t).view.read (Elt F) A') (((cfg0.win 1).blk t).view.read (Elt F) B')
          (((cfg0.win 2).blk t).view.read (Elt F) C') (((cfg0.win 3).blk t).view.read (Elt F) D'))
      = ((cfg0.win 4).blk t).view.read (Elt F) (stackedFlat A' B' C' D') := by
  obtain ⟨a0, a1, a2, b0, b1, b2, c0, c1, c2, d0, d1, d2, e1, e2, e3⟩ := idx_facts t
  funext j
  show k0_pay1 (((cfg0.win 0).blk t).view.read (Elt F) A') (((cfg0.win 1).blk t).view.read (Elt F) B')
      (((cfg0.win 2).blk t).view.read (Elt F) C') (((cfg0.win 3).blk t).view.read (Elt F) D') j
    = stackedFlat A' B' C' D' (((cfg0.win 4).blk t).view.emb j)
  refine (pay_apply _ _ _ _ j).trans ?_
  unfold stackedFlat
  refine band_congr ?_ ?_ ?_ ?_ ?_
  · show (j 1).val = win0_4.index t (1 : Fin 4) * 4 + 1 * (j 1).val
    omega
  · show A' (((cfg0.win 0).blk t).view.emb (blkCell j)) = A' (planeCell (((cfg0.win 4).blk t).view.emb j))
    refine congrArg A' (funext fun a => Fin.ext ?_)
    match a with
    | ⟨0, _⟩ => show win0_0.index t (0 : Fin 3) * 8 + 1 * (j 0).val = win0_4.index t (0 : Fin 4) * 8 + 1 * (j 0).val; omega
    | ⟨1, _⟩ => show win0_0.index t (1 : Fin 3) * 256 + 1 * (j 2).val = win0_4.index t (2 : Fin 4) * 256 + 1 * (j 2).val; omega
    | ⟨2, _⟩ => show win0_0.index t (2 : Fin 3) * 256 + 1 * (j 3).val = win0_4.index t (3 : Fin 4) * 256 + 1 * (j 3).val; omega
  · show B' (((cfg0.win 1).blk t).view.emb (blkCell j)) = B' (planeCell (((cfg0.win 4).blk t).view.emb j))
    refine congrArg B' (funext fun a => Fin.ext ?_)
    match a with
    | ⟨0, _⟩ => show win0_1.index t (0 : Fin 3) * 8 + 1 * (j 0).val = win0_4.index t (0 : Fin 4) * 8 + 1 * (j 0).val; omega
    | ⟨1, _⟩ => show win0_1.index t (1 : Fin 3) * 256 + 1 * (j 2).val = win0_4.index t (2 : Fin 4) * 256 + 1 * (j 2).val; omega
    | ⟨2, _⟩ => show win0_1.index t (2 : Fin 3) * 256 + 1 * (j 3).val = win0_4.index t (3 : Fin 4) * 256 + 1 * (j 3).val; omega
  · show C' (((cfg0.win 2).blk t).view.emb (blkCell j)) = C' (planeCell (((cfg0.win 4).blk t).view.emb j))
    refine congrArg C' (funext fun a => Fin.ext ?_)
    match a with
    | ⟨0, _⟩ => show win0_2.index t (0 : Fin 3) * 8 + 1 * (j 0).val = win0_4.index t (0 : Fin 4) * 8 + 1 * (j 0).val; omega
    | ⟨1, _⟩ => show win0_2.index t (1 : Fin 3) * 256 + 1 * (j 2).val = win0_4.index t (2 : Fin 4) * 256 + 1 * (j 2).val; omega
    | ⟨2, _⟩ => show win0_2.index t (2 : Fin 3) * 256 + 1 * (j 3).val = win0_4.index t (3 : Fin 4) * 256 + 1 * (j 3).val; omega
  · show D' (((cfg0.win 3).blk t).view.emb (blkCell j)) = D' (planeCell (((cfg0.win 4).blk t).view.emb j))
    refine congrArg D' (funext fun a => Fin.ext ?_)
    match a with
    | ⟨0, _⟩ => show win0_3.index t (0 : Fin 3) * 8 + 1 * (j 0).val = win0_4.index t (0 : Fin 4) * 8 + 1 * (j 0).val; omega
    | ⟨1, _⟩ => show win0_3.index t (1 : Fin 3) * 256 + 1 * (j 2).val = win0_4.index t (2 : Fin 4) * 256 + 1 * (j 2).val; omega
    | ⟨2, _⟩ => show win0_3.index t (2 : Fin 3) * 256 + 1 * (j 3).val = win0_4.index t (3 : Fin 4) * 256 + 1 * (j 3).val; omega

/-- The four arrays the region stages, as it finds them. -/
abbrev arrA (c : Dev nD) := V m c (Pipeline.arrRef spec0 0)
abbrev arrB (c : Dev nD) := V m c (Pipeline.arrRef spec0 1)
abbrev arrC (c : Dev nD) := V m c (Pipeline.arrRef spec0 2)
abbrev arrD (c : Dev nD) := V m c (Pipeline.arrRef spec0 3)

/-- WHAT POINT `t` WRITES BACK is block `t` of the merged result of the four arrays as the region finds them: each
    staged block is that array read through the block, so this is `block_eq` at those arrays. -/
theorem flushed_eq (c : Dev nD) (t : Fin cfg0.N) :
    (dats m 0 c).flushed 4 t = ((cfg0.win 4).blk t).view.read (Elt F)
      (stackedFlat (arrA m c) (arrB m c) (arrC m c) (arrD m c)) := by
  show (cfg0.win 4).cut (grid0.coords t) ((dats m 0 c).after 4 t) = _
  rw [after0_4]
  unfold out0_4
  rw [View.canon_unit_zero zero4]
  simp only [View.ld_unit_zero (S := S8x256x256) zero3]
  unfold iblk
  exact block_eq t (arrA m c) (arrB m c) (arrC m c) (arrD m c)

/-- An index of the result array is in point `t`'s block iff each coordinate is in the block's range on its axis. -/
theorem mem_blk (t : Fin cfg0.N) (i : S96x4x256x256.Idx) :
    i ∈ ((cfg0.win 4).blk t).view.set ↔ ∀ a : Fin 4, win0_4.index t a * S8x4x256x256.size a ≤ (i a).val
      ∧ (i a).val < win0_4.index t a * S8x4x256x256.size a + S8x4x256x256.size a := by
  show i ∈ ((View.whole main_v13).slice (win0_4.rect t)).set ↔ _
  rw [View.set_slice_whole, Rect.mem_set_unit]
  exact Iff.rfl

/-- THE BLOCKS COVER THE ARRAY: plane `r` is in the block of point `r / 8`. -/
theorem covered (i : S96x4x256x256.Idx) :
    ∃ t : Fin cfg0.N, (cfg0.win 4).flush t = true ∧ i ∈ ((cfg0.win 4).blk t).view.set := by
  have hi0 : (i 0).val < 96 := (i 0).isLt
  have hi1 : (i 1).val < 4 := (i 1).isLt
  have hi2 : (i 2).val < 256 := (i 2).isLt
  have hi3 : (i 3).val < 256 := (i 3).isLt
  obtain ⟨t, ht⟩ := idx_onto ⟨(i 0).val / 8, by omega⟩
  have q0 : win0_4.index t (0 : Fin 4) = (i 0).val / 8 := congrFun ht 0
  have q1 : win0_4.index t (1 : Fin 4) = 0 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 8 ≤ (i 0).val ∧ (i 0).val < win0_4.index t (0 : Fin 4) * 8 + 8; omega
  | ⟨1, _⟩ => show win0_4.index t (1 : Fin 4) * 4 ≤ (i 1).val ∧ (i 1).val < win0_4.index t (1 : Fin 4) * 4 + 4; omega
  | ⟨2, _⟩ => show win0_4.index t (2 : Fin 4) * 256 ≤ (i 2).val ∧ (i 2).val < win0_4.index t (2 : Fin 4) * 256 + 256; omega
  | ⟨3, _⟩ => show win0_4.index t (3 : Fin 4) * 256 ≤ (i 3).val ∧ (i 3).val < win0_4.index t (3 : Fin 4) * 256 + 256; omega

/-- THE RESULT ARRAY AFTER THE REGION is the merged result of the four arrays the region finds. -/
theorem final (c : Dev nD) :
    (dats m 0 c).arrAt 4 cfg0.N = stackedFlat (arrA m c) (arrB m c) (arrC m c) (arrD m c) :=
  (dats m 0 c).arrAt_eq_of_cover 4 _ (fun t _ => flushed_eq m c t) covered

end Cert.KernelIdeal.Blocks

end
-- ==== Proof.KernelValue.lean ====
/-
  The kernel's whole result. Before the region the program cuts the image into 2×2 cells, takes the four sample
  images and merges batch and channel into 96 planes (`staged_A` … `staged_D`); the region leaves the merged stacked
  result in its output array (the blocks file); after the region the program splits the planes again. Merging, stacking
  plane by plane and splitting is stacking image by image, so the program's result is `stacked` of the sample images
  of its argument (`result_eq`, `run`).
-/
import proofs.«159560_j53309134078401_1_alg».proof.Proof.Blocks
import Idealize.ShloMosaic.Lib.StableHlo.Run

set_option maxRecDepth 16384

noncomputable section

namespace Cert.KernelIdeal.Whole

open Cert.KernelIdeal Cert.KernelIdeal.Gen Cert.KernelIdeal.Blocks Cert.Haar
open Idealize.ShloMosaic Idealize.ShloMosaic.TcCoe Idealize.SL.Sem

variable {F : FTy → Type} [FloatOps F]
variable (m : (ℓ : Loc nD τ sig) → Buf (Elt F) ℓ) (ρ : Dev nD → PrngReg)

/-! ## Before the region: the staged arrays are the sample images, planes merged -/

theorem staged_A (c : Dev nD) :
    (arrA m c : S96x256x256.Idx → Elt F .f32) = shapeCast Flat (sampleA (m ((c : Thread nD τ).loc main_arg0))) (by decide) := by
  show StableHlo.after hostOps0 (fun b => m (c, b)) (Proc.devRef .tc main_v9) = _
  after_results
  rfl

theorem staged_B (c : Dev nD) :
    (arrB m c : S96x256x256.Idx → Elt F .f32) = shapeCast Flat (sampleB (m ((c : Thread nD τ).loc main_arg0))) (by decide) := by
  show StableHlo.after hostOps0 (fun b => m (c, b)) (Proc.devRef .tc main_v10) = _
  after_results
  rfl

theorem staged_C (c : Dev nD) :
    (arrC m c : S96x256x256.Idx → Elt F .f32) = shapeCast Flat (sampleC (m ((c : Thread nD τ).loc main_arg0))) (by decide) := by
  show StableHlo.after hostOps0 (fun b => m (c, b)) (Proc.devRef .tc main_v11) = _
  after_results
  rfl

theorem staged_D (c : Dev nD) :
    (arrD m c : S96x256x256.Idx → Elt F .f32) = shapeCast Flat (sampleD (m ((c : Thread nD τ).loc main_arg0))) (by decide) := by
  show StableHlo.after hostOps0 (fun b => m (c, b)) (Proc.devRef .tc main_v12) = _
  after_results
  rfl

/-! ## The region's output array, in terms of the argument -/

/-- The output array after the region: the merged stacked result of the merged sample images. -/
theorem region_out (c : Dev nD) :
    (dats m 0 c).arrAt 4 cfg0.N
      = stackedFlat (shapeCast Flat (sampleA (m ((c : Thread nD τ).loc main_arg0))) (by decide)) (shapeCast Flat (sampleB (m ((c : Thread nD τ).loc main_arg0))) (by decide))
          (shapeCast Flat (sampleC (m ((c : Thread nD τ).loc main_arg0))) (by decide)) (shapeCast Flat (sampleD (m ((c : Thread nD τ).loc main_arg0))) (by decide)) := by
  rw [final m c, staged_A m c, staged_B m c, staged_C m c, staged_D m c]

/-! ## After the region: the planes split again -/

/-- THE PROGRAM'S RESULT: the output array of the region with its planes split is the stacked coefficients of the
    four sample images of the argument. -/
theorem result_eq (c : Dev nD) :
    Pipeline.afterTail₀ cfgs (dats m) 0 (V0 m) [hostOps1] c main_v14
      = stacked (sampleA (m ((c : Thread nD τ).loc main_arg0))) (sampleB (m ((c : Thread nD τ).loc main_arg0))) (sampleC (m ((c : Thread nD τ).loc main_arg0))) (sampleD (m ((c : Thread nD τ).loc main_arg0))) := by
  unfold Pipeline.afterTail₀
  show StableHlo.after hostOps1 _ (Proc.devRef .tc main_v14) = _
  after_results
  show shapeCast Out (Pipeline.withArrays (cfgs 0).spec c (V0 m c) (fun w => (dats m 0 c).arrAt w (cfgs 0).N)
      (Proc.devRef .tc main_v13)) (by decide) = _
  rw [show Pipeline.withArrays (cfgs 0).spec c (V0 m c) (fun w => (dats m 0 c).arrAt w (cfgs 0).N) (Proc.devRef .tc main_v13)
        = stackedFlat (shapeCast Flat (sampleA (m ((c : Thread nD τ).loc main_arg0))) (by decide)) (shapeCast Flat (sampleB (m ((c : Thread nD τ).loc main_arg0))) (by decide))
            (shapeCast Flat (sampleC (m ((c : Thread nD τ).loc main_arg0))) (by decide)) (shapeCast Flat (sampleD (m ((c : Thread nD τ).loc main_arg0))) (by decide)) from
      (Pipeline.withArrays_arr spec0 launch0.win.arr_inj c _ _ 4).trans (region_out m c)]
  exact split_stackedFlat_merge _ _ _ _ _ _

/-! ## The run, read -/

/-- Every weakly fair execution of the program terminates with its result at the stacked coefficients of the sample
    images of its argument, the argument unchanged. -/
theorem run : θ_run defs (onTc (τ := τ) (main (F := F))) ⟨m, fun _ => 0, ρ⟩ fun r => ∀ c : Dev nD,
      r.2.mem ((c : Thread nD τ).loc main_v14) = stacked (sampleA (m ((c : Thread nD τ).loc main_arg0))) (sampleB (m ((c : Thread nD τ).loc main_arg0))) (sampleC (m ((c : Thread nD τ).loc main_arg0))) (sampleD (m ((c : Thread nD τ).loc main_arg0)))
      ∧ r.2.mem ((c : Thread nD τ).loc main_arg0) = m ((c : Thread nD τ).loc main_arg0) :=
  (θ_run defs _ _).mono (fun r h c =>
      ⟨((h c).2 main_v14 (Pipeline.mem_restRefs_of main_v14 (by decide) (by decide))).trans (result_eq m c),
       ((h c).2 main_arg0 (Pipeline.mem_restRefs_of main_arg0 (by decide) (by decide))).trans (W_main_arg0 m (dats m) c)⟩)
    (run_main m ρ)

end Cert.KernelIdeal.Whole

end
-- ==== Proof.RefValue.lean ====
/-
  The reference computes the stacked result directly: it forms the four coefficient images from the four sample images
  over the whole batch, gives each a unit band axis, and joins the four along it. Entry (batch, channel, band `s`, row,
  column) is therefore coefficient `s` of the cell's four samples: the reference's result is `stacked` of the sample
  images of its argument (`result_eq`).
-/
import proofs.«159560_j53309134078401_1_alg».proof.Proof.Gen.ReferenceIdeal.Run
import proofs.«159560_j53309134078401_1_alg».proof.Proof.HaarLayout

set_option maxRecDepth 16384

noncomputable section

namespace Cert.ReferenceIdeal.RefValue

open Cert.ReferenceIdeal Cert.ReferenceIdeal.Gen Cert.Haar
open Idealize.ShloMosaic Idealize.ShloMosaic.TcCoe Idealize.SL.Sem

variable {F : FTy → Type} [FloatOps F]

/-- The entry of a coefficient image with its unit band axis that a result entry is taken from. -/
abbrev unitBand (i : S32x3x4x256x256.Idx) : S32x3x1x256x256.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
  | ⟨4, _⟩ => ⟨(i 4).val, (i 4).isLt⟩

/-- Giving a coefficient image its unit band axis moves no entry. -/
theorem addBand_apply {α : Type} (X : S32x3x256x256.Idx → α)
    (h : S32x3x256x256.BroadcastsInDim S32x3x1x256x256 ![0, 1, 3, 4]) (i : S32x3x4x256x256.Idx) :
    broadcastInDim S32x3x1x256x256 ![0, 1, 3, 4] h X (unitBand i) = X (cell i) :=
  broadcastInDim_apply _ h X (unitBand i) (cell i) (fun a => match a with
    | ⟨0, _⟩ => by show (i 0).val = if (32 : Nat) = 1 then 0 else (i 0).val; rw [if_neg (by decide)]
    | ⟨1, _⟩ => by show (i 1).val = if (3 : Nat) = 1 then 0 else (i 1).val; rw [if_neg (by decide)]
    | ⟨2, _⟩ => by show (i 3).val = if (256 : Nat) = 1 then 0 else (i 3).val; rw [if_neg (by decide)]
    | ⟨3, _⟩ => by show (i 4).val = if (256 : Nat) = 1 then 0 else (i 4).val; rw [if_neg (by decide)])

/-- THE REFERENCE'S RESULT is the stacked coefficients of the four sample images of its argument. -/
theorem result_eq (m : (ℓ : Loc nD τ sig) → Buf (Elt F) ℓ) (c : Dev nD) :
    Cert.ReferenceIdeal.Value.res_main_v33 m c
      = stacked (sampleA (m ((c.tc : Thread nD τ).loc main_arg0))) (sampleB (m ((c.tc : Thread nD τ).loc main_arg0)))
          (sampleC (m ((c.tc : Thread nD τ).loc main_arg0))) (sampleD (m ((c.tc : Thread nD τ).loc main_arg0))) := by
  funext i
  unfold Cert.ReferenceIdeal.Value.res_main_v33
  refine Eq.trans (concatenate_four_unit_apply (t := S32x3x4x256x256) (s₁ := S32x3x1x256x256) 2 _ _ _ _ _ rfl rfl i (unitBand i) ?_) ?_
  · intro b hb
    match b with
    | ⟨0, _⟩ => rfl
    | ⟨1, _⟩ => rfl
    | ⟨2, _⟩ => exact absurd rfl hb
    | ⟨3, _⟩ => rfl
    | ⟨4, _⟩ => rfl
  · rw [pick4_apply, addBand_apply, addBand_apply, addBand_apply, addBand_apply]
    rfl

end Cert.ReferenceIdeal.RefValue

end
-- ==== Proof.lean ====
/-
  One level of the two-dimensional Haar wavelet transform of an image `x : [32, 3, 512, 512]` (batch, channel, row,
  column), computed two ways, and the proof that both give the same array of extended reals.

  Cut every channel of the image into 2×2 cells. A cell holds four samples: `a` top left, `b` top right, `c` bottom
  left, `d` bottom right. The transform sends the cell to four coefficients,

      band 0 = ((a + b) + c + d) · ½        band 1 = ((a + b) − c − d) · ½
      band 2 = ((a − b) + c − d) · ½        band 3 = ((a − b) − c + d) · ½,

  and the result `[32, 3, 4, 256, 256]` holds, at (batch, channel, band `s`, cell row, cell column), coefficient `s` of
  that cell.

  The reference forms the four sample images `[32, 3, 256, 256]`, combines them over the whole batch and stacks the four
  coefficient images on a new axis after the channel. The kernel's program forms the same four sample images, merges
  batch and channel into 96 planes, and launches a grid of twelve points; point `t` loads planes `8t … 8t + 7` of each
  sample image, computes the four coefficient images of those planes and stores them stacked on the axis after the
  plane; after the grid the program splits the planes back into batch and channel.

  Both programs spell every coefficient with the same grouping of its additions and subtractions and with the same
  constant for ½, so the two results agree term by term: no law of arithmetic on the extended reals is used, and the
  finiteness of the input is never needed. What there is to prove is where each coefficient is stored:
    * a stack of four images, read at an index, is the image the stacking coordinate names (HaarBands);
    * plane `3·b + c` is (batch `b`, channel `c`), so merging, stacking plane by plane and splitting again is stacking
      image by image (HaarLayout);
    * what one grid point stores is block `t` of the merged stacked result (Payload, Blocks), the twelve blocks cover
      the output array, and the host operations around the grid are the merge and the split (KernelValue);
    * the reference's result is the stacked result (RefValue).
  The three frame claims are the generated frames (the reference's is its generated run with the result dropped), and
  the idealization changes no operation, so `preserves` holds trivially.
-/
import proofs.«159560_j53309134078401_1_alg».proof.Defs
import proofs.«159560_j53309134078401_1_alg».proof.Proof.Gen.Kernel
import proofs.«159560_j53309134078401_1_alg».proof.Proof.Gen.Kernel.Skeleton
import proofs.«159560_j53309134078401_1_alg».proof.Proof.Gen.Kernel.Launch
import proofs.«159560_j53309134078401_1_alg».proof.Proof.Gen.Kernel.Points
import proofs.«159560_j53309134078401_1_alg».proof.Proof.Gen.Kernel.Frame
import proofs.«159560_j53309134078401_1_alg».proof.Proof.Gen.KernelIdeal
import proofs.«159560_j53309134078401_1_alg».proof.Proof.Gen.KernelIdeal.Skeleton
import proofs.«159560_j53309134078401_1_alg».proof.Proof.Gen.KernelIdeal.Launch
import proofs.«159560_j53309134078401_1_alg».proof.Proof.Gen.KernelIdeal.Points
import proofs.«159560_j53309134078401_1_alg».proof.Proof.Gen.KernelIdeal.Frame
import proofs.«159560_j53309134078401_1_alg».proof.Proof.Gen.ReferenceIdeal
import proofs.«159560_j53309134078401_1_alg».proof.Proof.Gen.ReferenceIdeal.Run
import proofs.«159560_j53309134078401_1_alg».proof.Proof.Gen.Pre_finite_inputs
import proofs.«159560_j53309134078401_1_alg».proof.Proof.KernelValue
import proofs.«159560_j53309134078401_1_alg».proof.Proof.RefValue
import Idealize.ShloMosaic.Adequacy
import Idealize.ShloMosaic.Init

noncomputable section

namespace Cert.Proof

open Idealize.ShloMosaic Idealize.SL.Sem

/-- The word-level kernel program runs and leaves the image unchanged. -/
theorem frame_kernel : Cert.frame_Kernel := fun m ρ _ => Cert.Kernel.Gen.frame m ρ

/-- So does the kernel program read over the extended reals. -/
theorem frame_ideal : Cert.frame_KernelIdeal := fun m ρ _ => Cert.KernelIdeal.Gen.frame m ρ

/-- The reference runs and leaves the image unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the stacked coefficients of the four sample images of the image they
    were given, and they were given the same image. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
